-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x3x8x2 : Shape := ⟨4, ![32, 3, 8, 2]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : IVec S32x3x8x2 32) (main_arg2 : IVec S32x3x8x2 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x3x8x2 : Shape := ⟨4, ![32, 3, 8, 2]⟩
abbrev S1x3x512x512 : Shape := ⟨4, ![1, 3, 512, 512]⟩
abbrev S1x3x8x2 : Shape := ⟨4, ![1, 3, 8, 2]⟩
abbrev S1x1x512x512 : Shape := ⟨4, ![1, 1, 512, 512]⟩
abbrev S512x512 : Shape := ⟨2, ![512, 512]⟩
abbrev S1x1x8x2 : Shape := ⟨4, ![1, 1, 8, 2]⟩
abbrev S8x2 : Shape := ⟨2, ![8, 2]⟩
abbrev S8x1 : Shape := ⟨2, ![8, 1]⟩
abbrev S8 : Shape := ⟨1, ![8]⟩
abbrev S512x8 : Shape := ⟨2, ![512, 8]⟩
abbrev S8x512 : Shape := ⟨2, ![8, 512]⟩
abbrev S1x8 : Shape := ⟨2, ![1, 8]⟩

abbrev nBuf : Space → Nat
  | .hbm => 4
  | .vmem => 8
  | .smem => 0
  | _ => 0

abbrev bufTy : (tb : Table) → Fin (tcTables nBuf tb) → BufTy
  | .hbm, ⟨0, _⟩ => ⟨S32x3x512x512, .f32⟩
  | .hbm, ⟨1, _⟩ => ⟨S32x3x8x2, .i32⟩
  | .hbm, ⟨2, _⟩ => ⟨S32x3x8x2, .i32⟩
  | .hbm, ⟨3, _⟩ => ⟨S32x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x8x2, .i32⟩
  | .local _ .vmem, ⟨3, _⟩ => ⟨S1x3x8x2, .i32⟩
  | .local _ .vmem, ⟨4, _⟩ => ⟨S1x3x8x2, .i32⟩
  | .local _ .vmem, ⟨5, _⟩ => ⟨S1x3x8x2, .i32⟩
  | .local _ .vmem, ⟨6, _⟩ => ⟨S1x3x512x512, .f32⟩
  | .local _ .vmem, ⟨7, _⟩ => ⟨S1x3x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  inb_S1x3x8x2_S1x1x8x2_0_0_0_0 : ∀ a, (![0, 0, 0, 0] : Fin 4 → Nat) a + S1x1x8x2.size a ≤ S1x3x8x2.size a
  h_S1x1x8x2 : 0 < S1x1x8x2.numel
  shapeCasts_S1x1x8x2_S8x2 : S1x1x8x2.ShapeCasts S8x2
  slices_S8x2_o0_0_S8x1 : S8x2.Slices ![0, 0] S8x1
  shapeCasts_S8x1_S8 : S8x1.ShapeCasts S8
  slices_S8x2_o0_1_S8x1 : S8x2.Slices ![0, 1] S8x1
  iota_S512x8_d0_w32 : S512x8.Iotas .tc 32 [0]
  iota_S8x512_d1_w32 : S8x512.Iotas .tc 32 [1]
  shapeCasts_S8_S1x8 : S8.ShapeCasts S1x8
  broadcasts_S1x8_S512x8 : S1x8.Broadcasts S512x8
  shapeCasts_S8_S8x1 : S8.ShapeCasts S8x1
  broadcasts_S8x1_S8x512 : S8x1.Broadcasts S8x512
  natLt_1_32 : 1 < 32
  bitsLt_bf16_f32 : FTy.bits .bf16 < FTy.bits .f32
  shapeCasts_S512x512_S1x1x512x512 : S512x512.ShapeCasts S1x1x512x512
  inb_S1x3x512x512_S1x1x512x512_0_1_0_0 : ∀ a, (![0, 1, 0, 0] : Fin 4 → Nat) a + S1x1x512x512.size a ≤ S1x3x512x512.size a
  inb_S1x3x8x2_S1x1x8x2_0_1_0_0 : ∀ a, (![0, 1, 0, 0] : Fin 4 → Nat) a + S1x1x8x2.size a ≤ S1x3x8x2.size a
  inb_S1x3x512x512_S1x1x512x512_0_2_0_0 : ∀ a, (![0, 2, 0, 0] : Fin 4 → Nat) a + S1x1x512x512.size a ≤ S1x3x512x512.size a
  inb_S1x3x8x2_S1x1x8x2_0_2_0_0 : ∀ a, (![0, 2, 0, 0] : Fin 4 → Nat) a + S1x1x8x2.size a ≤ S1x3x8x2.size a
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8x2.size a ≤ S32x3x8x2.size a
  hwx0_1 : ∀ i : grid0.Coords, EltTy.bits .i32 = 32 ∨ (Rect.block (s := S32x3x8x2) S1x3x8x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x2.size a ≤ S32x3x8x2.size a
  hwx0_2 : ∀ i : grid0.Coords, EltTy.bits .i32 = 32 ∨ (Rect.block (s := S32x3x8x2) S1x3x8x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x512x512.size a ≤ S32x3x512x512.size a
  hwx0_3 : ∀ i : grid0.Coords, EltTy.bits .f32 = 32 ∨ (Rect.block (s := S32x3x512x512) S1x3x512x512.size (cc0_transform_3 i) (hinb0_3 i)).WholeWords (EltTy.packing .f32)

variable [Facts₀]

def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x3x8x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x3x8x2 : Shape := ⟨4, ![32, 3, 8, 2]⟩
abbrev S32x3x8x1 : Shape := ⟨4, ![32, 3, 8, 1]⟩
abbrev S32x3x8 : Shape := ⟨3, ![32, 3, 8]⟩
abbrev S512 : Shape := ⟨1, ![512]⟩
abbrev S1x1x1x512 : Shape := ⟨4, ![1, 1, 1, 512]⟩
abbrev S32x3x8x512 : Shape := ⟨4, ![32, 3, 8, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x8x2, .i32⟩
  | .hbm, ⟨2, _⟩ => ⟨S32x3x8x2, .i32⟩
  | .hbm, ⟨3, _⟩ => ⟨S32x3x8x1, .i32⟩
  | .hbm, ⟨4, _⟩ => ⟨S32x3x8, .i32⟩
  | .hbm, ⟨5, _⟩ => ⟨S32x3x8x1, .i32⟩
  | .hbm, ⟨6, _⟩ => ⟨S32x3x8, .i32⟩
  | .hbm, ⟨7, _⟩ => ⟨S32x3x8x1, .i32⟩
  | .hbm, ⟨8, _⟩ => ⟨S32x3x8, .i32⟩
  | .hbm, ⟨9, _⟩ => ⟨S32x3x8x1, .i32⟩
  | .hbm, ⟨10, _⟩ => ⟨S32x3x8, .i32⟩
  | .hbm, ⟨11, _⟩ => ⟨S512, .i32⟩
  | .hbm, ⟨12, _⟩ => ⟨S512, .i32⟩
  | .hbm, ⟨13, _⟩ => ⟨S32x3x8x1, .i32⟩
  | .hbm, ⟨14, _⟩ => ⟨S1x1x1x512, .i32⟩
  | .hbm, ⟨15, _⟩ => ⟨S32x3x8x512, .i32⟩
  | .hbm, ⟨16, _⟩ => ⟨S32x3x8x512, .i32⟩
  | .hbm, ⟨17, _⟩ => ⟨S32x3x8x512, .i1⟩
  | .hbm, ⟨18, _⟩ => ⟨S32x3x8x1, .i32⟩
  | .hbm, ⟨19, _⟩ => ⟨S1x1x1x512, .i32⟩
  | .hbm, ⟨20, _⟩ => ⟨S32x3x8x512, .i32⟩
  | .hbm, ⟨21, _⟩ => ⟨S32x3x8x512, .i32⟩
  | .hbm, ⟨22, _⟩ => ⟨S32x3x8x512, .i1⟩
  | .hbm, ⟨23, _⟩ => ⟨S32x3x8x512, .i1⟩
  | .hbm, ⟨24, _⟩ => ⟨S32x3x8x1, .i32⟩
  | .hbm, ⟨25, _⟩ => ⟨S1x1x1x512, .i32⟩
  | .hbm, ⟨26, _⟩ => ⟨S32x3x8x512, .i32⟩
  | .hbm, ⟨27, _⟩ => ⟨S32x3x8x512, .i32⟩
  | .hbm, ⟨28, _⟩ => ⟨S32x3x8x512, .i1⟩
  | .hbm, ⟨29, _⟩ => ⟨S32x3x8x1, .i32⟩
  | .hbm, ⟨30, _⟩ => ⟨S1x1x1x512, .i32⟩
  | .hbm, ⟨31, _⟩ => ⟨S32x3x8x512, .i32⟩
  | .hbm, ⟨32, _⟩ => ⟨S32x3x8x512, .i32⟩
  | .hbm, ⟨33, _⟩ => ⟨S32x3x8x512, .i1⟩
  | .hbm, ⟨34, _⟩ => ⟨S32x3x8x512, .i1⟩
  | .hbm, ⟨35, _⟩ => ⟨S32x3x8x512, .f32⟩
  | .hbm, ⟨36, _⟩ => ⟨S32x3x8x512, .f32⟩
  | .hbm, ⟨37, _⟩ => ⟨S32x3x512x512, .f32⟩
  | .hbm, ⟨38, _⟩ => ⟨S_, .f32⟩
  | .hbm, ⟨39, _⟩ => ⟨S32x3x512x512, .f32⟩
  | .hbm, ⟨40, _⟩ => ⟨S32x3x512x512, .i1⟩
  | .hbm, ⟨41, _⟩ => ⟨S_, .f32⟩
  | .hbm, ⟨42, _⟩ => ⟨S32x3x512x512, .f32⟩
  | .hbm, ⟨43, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst : Ref sig .tc := ⟨.hbm, 38, rfl⟩
abbrev main_v35 : Ref sig .tc := ⟨.hbm, 39, rfl⟩
abbrev main_v36 : Ref sig .tc := ⟨.hbm, 40, rfl⟩
abbrev main_cst_0 : Ref sig .tc := ⟨.hbm, 41, rfl⟩
abbrev main_call0_v0 : Ref sig .tc := ⟨.hbm, 42, rfl⟩
abbrev main_v37 : Ref sig .tc := ⟨.hbm, 43, rfl⟩

abbrev nD : Nat := 1
abbrev τ : Topo := Topo.v7x

variable {F : FTy → Type} [FloatOps F]

class Facts₀ : Prop where
  slices_S32x3x8x2_S32x3x8x1_0_0_0_0 : S32x3x8x2.Slices ![0, 0, 0, 0] S32x3x8x1
  shapeCasts_S32x3x8x1_S32x3x8 : S32x3x8x1.ShapeCasts S32x3x8
  slices_S32x3x8x2_S32x3x8x1_0_0_0_1 : S32x3x8x2.Slices ![0, 0, 0, 1] S32x3x8x1
  bcast_S32x3x8_S32x3x8x1_0_1_2 : S32x3x8.BroadcastsInDim S32x3x8x1 (![0, 1, 2] : Fin 3 → Fin S32x3x8x1.rank)
  bcast_S512_S1x1x1x512_3 : S512.BroadcastsInDim S1x1x1x512 (![3] : Fin 1 → Fin S1x1x1x512.rank)
  bcast_S1x1x1x512_S32x3x8x512_0_1_2_3 : S1x1x1x512.BroadcastsInDim S32x3x8x512 (![0, 1, 2, 3] : Fin 4 → Fin S32x3x8x512.rank)
  bcast_S32x3x8x1_S32x3x8x512_0_1_2_3 : S32x3x8x1.BroadcastsInDim S32x3x8x512 (![0, 1, 2, 3] : Fin 4 → Fin S32x3x8x512.rank)
  bcast_S_S32x3x512x512 : S_.BroadcastsInDim S32x3x512x512 (![] : Fin 0 → Fin S32x3x512x512.rank)
  dot_S32x3x8x512_S32x3x8x512_S32x3x512x512_2_2_3_3_01_01_wf : DotDims.WF S32x3x8x512 S32x3x8x512 S32x3x512x512 [2] [2] [3] [3] [0, 1] [0, 1]

variable [Facts₀]

def dot_S32x3x8x512_S32x3x8x512_S32x3x512x512_2_2_3_3_01_01 : DotDims S32x3x8x512 S32x3x8x512 S32x3x512x512 where
  lhsContracting := [2]
  rhsContracting := [2]
  lhsNonContracting := [3]
  rhsNonContracting := [3]
  lhsBatch := [0, 1]
  rhsBatch := [0, 1]
  wf := dot_S32x3x8x512_S32x3x8x512_S32x3x512x512_2_2_3_3_01_01_wf

class Facts : Prop extends Facts₀ where

variable [Facts]
-- ==== Proof.CutoutSpec.lean ====
/-
  The function both programs compute, on the extended reals.

  The input is an image `x` of shape [32, 3, 512, 512] and, for each of its 32 × 3 planes, eight boxes: box `n` of plane
  `(b, c)` is the product of the row interval `[wp(b,c,n,0), wp(b,c,n,1))` and the column interval
  `[hp(b,c,n,0), hp(b,c,n,1))`, the bounds signed 32-bit integers. A pixel `(w, h)` of the plane is covered by box `n`
  when `w` is in the row interval and `h` in the column interval; the number of boxes covering it is
  `∑ n, [w in rows n] · [h in columns n]`, a sum of eight products of numbers that are 0 or 1. The result keeps `x` at the
  pixels no box covers and is zero at the others.

  Both a signed conversion of the bit widened to 32 bits and an unsigned conversion of the bit itself give that 0 or 1.
-/
import Idealize.ShloMosaic.Lib.ValueIdx
import Idealize.ShloMosaic.PureOps.Ideal.Laws

noncomputable section

open scoped BigOperators

namespace Cert.Cutout

open Idealize.ShloMosaic Idealize.ShloMosaic.ValueIdx

/-- The image's shape, and the shape of a table of interval bounds. -/
abbrev SX : Shape := ⟨4, ![32, 3, 512, 512]⟩
abbrev SP : Shape := ⟨4, ![32, 3, 8, 2]⟩

/-- The bit `lo ≤ p < hi`: the coordinate `p` as a 32-bit word, compared as signed integers with the two bounds. -/
def inside (p : Nat) (lo hi : BitVec 32) : BitVec 1 :=
  IntOp.andi (IntOp.cmpi .sge (BitVec.ofNat 32 p) lo) (IntOp.cmpi .slt (BitVec.ofNat 32 p) hi)

/-- A bit as the extended real 0 or 1. -/
def bit (b : BitVec 1) : EReal := ((b.toNat : ℝ) : EReal)

/-- How many of the eight boxes of plane `(b, c)` cover the pixel `(w, h)`. -/
def count (wp hp : SP.Idx → BitVec 32) (b : Fin 32) (c : Fin 3) (w h : Fin 512) : EReal :=
  ∑ n : Fin 8, bit (inside w.val (wp (ix4 b c n (0 : Fin 2))) (wp (ix4 b c n (1 : Fin 2))))
    * bit (inside h.val (hp (ix4 b c n (0 : Fin 2))) (hp (ix4 b c n (1 : Fin 2))))

/-- The image with every covered pixel set to zero. -/
def cutout (x : SX.Idx → EReal) (wp hp : SP.Idx → BitVec 32) : SX.Idx → EReal := fun i =>
  Scalar.select (Ideal.cmp .ogt (count wp hp (i 0) (i 1) (i 2) (i 3)) (Ideal.ofBits .f32 0x00000000#32))
    (Ideal.ofBits .f32 0x00000000#32) (x i)

/-- The unsigned conversion of a bit is the bit's number. -/
theorem uitofp_bit (b : BitVec 1) : FloatOps.uitofp (F := Ideal) .f32 b = bit b := rfl

/-- The signed conversion of a bit widened with zeros to 32 bits is the bit's number: the widened word is 0 or 1, and
    its sign bit is clear. -/
theorem sitofp_widened_bit (b : BitVec 1) : FloatOps.sitofp (F := Ideal) .f32 (b.setWidth 32) = bit b := by
  have h : (b.setWidth 32).toInt = (b.toNat : ℤ) := by revert b; decide
  show (((b.setWidth 32).toInt : ℝ) : EReal) = ((b.toNat : ℝ) : EReal)
  rw [h]
  norm_cast

end Cert.Cutout

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibUnitAxes.lean ====
/-
  Shape casts that only add or remove axes of size one, read at an index by coordinates: a matrix seen as a
  `[1, 1, a, b]` array and back, and a column `[a, 1]` seen as the vector `[a]`. The row-major position of an index
  does not see a coordinate that can only be zero, so each cast reads its operand at the same remaining coordinates.
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibUnitAxes

end
-- ==== Proof.BodyCutout.lean ====
/-
  What the kernel's body computes for one plane.

  At a grid point the body holds the three planes of one image and their box tables. For each plane it builds a
  [512, 8] matrix of row indicators (entry `(w, n)`: is row `w` inside box `n`'s row interval) and an [8, 512]
  matrix of column indicators (entry `(n, h)`), multiplies them into a zero accumulator — entry `(w, h)` of the
  product is `∑ n, rows(w, n) · columns(n, h)`, the number of boxes covering the pixel — and stores zero where that
  count is positive and the plane's own value elsewhere. The three planes are computed by the same operations of the
  same kind of operands, so one function (`plane`) describes all three stores.
-/
import proofs.«163389_j51883204935704_1_alg».proof.Proof.Gen.KernelIdeal.Skeleton
import proofs.«163389_j51883204935704_1_alg».proof.Proof.CutoutSpec
import proofs.«163389_j51883204935704_1_alg».proof.Proof.LibPlainDot
import proofs.«163389_j51883204935704_1_alg».proof.Proof.LibKeepdims
import proofs.«163389_j51883204935704_1_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.Cutout

variable {F : FTy → Type} [FloatOps F]

/-! ## One plane's operations, named -/

/-- Bound `o` (0: lower, 1: upper) of every box, spread along the rows of a [512, 8] matrix: entry `(w, n)` is
    the bound of box `n`. -/
def rowBound (v : IVec S8x2 32) (o : Nat) (hs : S8x2.Slices ![0, o] S8x1) : IVec S512x8 32 :=
  broadcastTo S512x8 (shapeCast S1x8 (shapeCast S8 (extractStridedSlice S8x1 ![0, o] v hs) shapeCasts_S8x1_S8)
    shapeCasts_S8_S1x8) broadcasts_S1x8_S512x8

/-- Bound `o` of every box, spread along the columns of an [8, 512] matrix: entry `(n, h)` is the bound of box `n`. -/
def colBound (v : IVec S8x2 32) (o : Nat) (hs : S8x2.Slices ![0, o] S8x1) : IVec S8x512 32 :=
  broadcastTo S8x512 (shapeCast S8x1 (shapeCast S8 (extractStridedSlice S8x1 ![0, o] v hs) shapeCasts_S8x1_S8)
    shapeCasts_S8_S8x1) broadcasts_S8x1_S8x512

/-- The [512, 8] matrix of row indicators of a plane's row table. -/
def rowsIn (wv : Vec F S1x1x8x2 .i32) : FVec F S512x8 .bf16 :=
  truncf .bf16 (sitofp .f32 (extui 32 (andi
    (cmpi .sge (iota .tc S512x8 32 [0] iota_S512x8_d0_w32)
      (rowBound (shapeCast S8x2 wv shapeCasts_S1x1x8x2_S8x2) 0 slices_S8x2_o0_0_S8x1))
    (cmpi .slt (iota .tc S512x8 32 [0] iota_S512x8_d0_w32)
      (rowBound (shapeCast S8x2 wv shapeCasts_S1x1x8x2_S8x2) 1 slices_S8x2_o0_1_S8x1))) natLt_1_32)) bitsLt_bf16_f32

/-- The [8, 512] matrix of column indicators of a plane's column table. -/
def colsIn (hv : Vec F S1x1x8x2 .i32) : FVec F S8x512 .bf16 :=
  truncf .bf16 (sitofp .f32 (extui 32 (andi
    (cmpi .sge (iota .tc S8x512 32 [1] iota_S8x512_d1_w32)
      (colBound (shapeCast S8x2 hv shapeCasts_S1x1x8x2_S8x2) 0 slices_S8x2_o0_0_S8x1))
    (cmpi .slt (iota .tc S8x512 32 [1] iota_S8x512_d1_w32)
      (colBound (shapeCast S8x2 hv shapeCasts_S1x1x8x2_S8x2) 1 slices_S8x2_o0_1_S8x1))) natLt_1_32)) bitsLt_bf16_f32

/-- The [512, 512] matrix of covering counts: the product of the two indicator matrices, from zero. -/
def boxCount (wv hv : Vec F S1x1x8x2 .i32) : FVec F S512x512 .f32 :=
  matmul dot_S512x8_S8x512_S512x512_1_0_0_1_n_n none (rowsIn wv) (colsIn hv) (constant S512x512 .f32 0x00000000#32)

/-- What is stored for a plane: zero where the count is positive, the plane's own value elsewhere. -/
def plane (xv : Vec F S1x1x512x512 .f32) (wv hv : Vec F S1x1x8x2 .i32) : FVec F S1x1x512x512 .f32 :=
  shapeCast S1x1x512x512
    (select (cmpf .ogt (boxCount wv hv) (broadcast S512x512 (Scalar.ofBits .f32 0x00000000#32)))
      (broadcast S512x512 (Scalar.ofBits .f32 0x00000000#32)) (shapeCast S512x512 xv shapeCasts_S1x1x512x512_S512x512))
    shapeCasts_S512x512_S1x1x512x512

/-! ## The three stores are `plane` of the three planes' loads -/

theorem store0_eq (v0 : Vec F S1x1x512x512 .f32) (v2 v4 : Vec F S1x1x8x2 .i32) :
    k0_pay3 (k0_pay2 v0 v2 v4) = plane v0 v2 v4 := rfl

theorem store1_eq (v44 : Vec F S1x1x512x512 .f32) (v46 v48 : Vec F S1x1x8x2 .i32) :
    k0_pay7 (k0_pay4 v44) (k0_pay5 v46 v48) (k0_pay6 (F := F)) = plane v44 v46 v48 := rfl

theorem store2_eq (v88 : Vec F S1x1x512x512 .f32) (v90 v92 : Vec F S1x1x8x2 .i32) :
    k0_pay1 (k0_pay8 v88) (k0_pay9 v90 v92) (Scalar.ofBits .f32 0x00000000#32) = plane v88 v90 v92 := rfl

/-! ## Read at an index, on the extended reals -/

/-- Entry `(w, n)` of a bound spread along the rows is bound `o` of box `n`. -/
theorem rowBound_apply (v : IVec S8x2 32) (o : Nat) (ho : o < 2) (hs : S8x2.Slices ![0, o] S8x1) (w : Fin 512) (n : Fin 8) :
    rowBound v o hs (ix2 w n) = v (ix2 n (⟨o, ho⟩ : Fin 2)) := by
  unfold rowBound
  refine (broadcastTo_1b_ab_apply _ broadcasts_S1x8_S512x8 w n).trans ?_
  refine (shapeCast_a_1a_apply _ shapeCasts_S8_S1x8 (0 : Fin 1) n).trans ?_
  refine (Cert.LibUnitAxes.shapeCast_a1_a_apply _ shapeCasts_S8x1_S8 n).trans ?_
  exact slice2_axis1_apply o v hs n (0 : Fin 1) ⟨o, ho⟩ rfl

/-- Entry `(n, h)` of a bound spread along the columns is bound `o` of box `n`. -/
theorem colBound_apply (v : IVec S8x2 32) (o : Nat) (ho : o < 2) (hs : S8x2.Slices ![0, o] S8x1) (n : Fin 8) (h : Fin 512) :
    colBound v o hs (ix2 n h) = v (ix2 n (⟨o, ho⟩ : Fin 2)) := by
  unfold colBound
  refine (Cert.LibKeepdims.broadcastTo_a1_ab_apply _ broadcasts_S8x1_S8x512 n h).trans ?_
  refine (Cert.LibKeepdims.shapeCast_a_a1_apply _ shapeCasts_S8_S8x1 n (0 : Fin 1)).trans ?_
  refine (Cert.LibUnitAxes.shapeCast_a1_a_apply _ shapeCasts_S8x1_S8 n).trans ?_
  exact slice2_axis1_apply o v hs n (0 : Fin 1) ⟨o, ho⟩ rfl

/-- Entry `(w, n)` of the row indicators: is row `w` inside box `n`'s row interval. The indicator bit is widened to
    32 bits and converted as a signed integer, which gives the bit's number; the change of float format is the
    identity on the extended reals. -/
theorem rowsIn_apply (wv : Vec Ideal S1x1x8x2 .i32) (w : Fin 512) (n : Fin 8) :
    rowsIn (F := Ideal) wv (ix2 w n)
      = bit (inside w.val (wv (ix4 (0 : Fin 1) (0 : Fin 1) n (0 : Fin 2))) (wv (ix4 (0 : Fin 1) (0 : Fin 1) n (1 : Fin 2)))) := by
  have hi : iota .tc S512x8 32 [0] iota_S512x8_d0_w32 (ix2 w n) = BitVec.ofNat 32 w.val :=
    iota_single_apply .tc S512x8 32 0 iota_S512x8_d0_w32 (ix2 w n)
  have hlo : rowBound (shapeCast S8x2 wv shapeCasts_S1x1x8x2_S8x2) 0 slices_S8x2_o0_0_S8x1 (ix2 w n)
      = wv (ix4 (0 : Fin 1) (0 : Fin 1) n (0 : Fin 2)) :=
    (rowBound_apply _ 0 (by decide) _ w n).trans
      (Cert.LibUnitAxes.shapeCast_11ab_ab_apply wv shapeCasts_S1x1x8x2_S8x2 n (0 : Fin 2))
  have hhi : rowBound (shapeCast S8x2 wv shapeCasts_S1x1x8x2_S8x2) 1 slices_S8x2_o0_1_S8x1 (ix2 w n)
      = wv (ix4 (0 : Fin 1) (0 : Fin 1) n (1 : Fin 2)) :=
    (rowBound_apply _ 1 (by decide) _ w n).trans
      (Cert.LibUnitAxes.shapeCast_11ab_ab_apply wv shapeCasts_S1x1x8x2_S8x2 n (1 : Fin 2))
  show FloatOps.sitofp (F := Ideal) .f32 ((IntOp.andi
      (IntOp.cmpi .sge (iota .tc S512x8 32 [0] iota_S512x8_d0_w32 (ix2 w n))
        (rowBound (shapeCast S8x2 wv shapeCasts_S1x1x8x2_S8x2) 0 slices_S8x2_o0_0_S8x1 (ix2 w n)))
      (IntOp.cmpi .slt (iota .tc S512x8 32 [0] iota_S512x8_d0_w32 (ix2 w n))
        (rowBound (shapeCast S8x2 wv shapeCasts_S1x1x8x2_S8x2) 1 slices_S8x2_o0_1_S8x1 (ix2 w n)))).setWidth 32) = _
  rw [hi, hlo, hhi, sitofp_widened_bit]
  rfl

/-- Entry `(n, h)` of the column indicators: is column `h` inside box `n`'s column interval. -/
theorem colsIn_apply (hv : Vec Ideal S1x1x8x2 .i32) (n : Fin 8) (h : Fin 512) :
    colsIn (F := Ideal) hv (ix2 n h)
      = bit (inside h.val (hv (ix4 (0 : Fin 1) (0 : Fin 1) n (0 : Fin 2))) (hv (ix4 (0 : Fin 1) (0 : Fin 1) n (1 : Fin 2)))) := by
  have hi : iota .tc S8x512 32 [1] iota_S8x512_d1_w32 (ix2 n h) = BitVec.ofNat 32 h.val :=
    iota_single_apply .tc S8x512 32 1 iota_S8x512_d1_w32 (ix2 n h)
  have hlo : colBound (shapeCast S8x2 hv shapeCasts_S1x1x8x2_S8x2) 0 slices_S8x2_o0_0_S8x1 (ix2 n h)
      = hv (ix4 (0 : Fin 1) (0 : Fin 1) n (0 : Fin 2)) :=
    (colBound_apply _ 0 (by decide) _ n h).trans
      (Cert.LibUnitAxes.shapeCast_11ab_ab_apply hv shapeCasts_S1x1x8x2_S8x2 n (0 : Fin 2))
  have hhi : colBound (shapeCast S8x2 hv shapeCasts_S1x1x8x2_S8x2) 1 slices_S8x2_o0_1_S8x1 (ix2 n h)
      = hv (ix4 (0 : Fin 1) (0 : Fin 1) n (1 : Fin 2)) :=
    (colBound_apply _ 1 (by decide) _ n h).trans
      (Cert.LibUnitAxes.shapeCast_11ab_ab_apply hv shapeCasts_S1x1x8x2_S8x2 n (1 : Fin 2))
  show FloatOps.sitofp (F := Ideal) .f32 ((IntOp.andi
      (IntOp.cmpi .sge (iota .tc S8x512 32 [1] iota_S8x512_d1_w32 (ix2 n h))
        (colBound (shapeCast S8x2 hv shapeCasts_S1x1x8x2_S8x2) 0 slices_S8x2_o0_0_S8x1 (ix2 n h)))
      (IntOp.cmpi .slt (iota .tc S8x512 32 [1] iota_S8x512_d1_w32 (ix2 n h))
        (colBound (shapeCast S8x2 hv shapeCasts_S1x1x8x2_S8x2) 1 slices_S8x2_o0_1_S8x1 (ix2 n h)))).setWidth 32) = _
  rw [hi, hlo, hhi, sitofp_widened_bit]
  rfl

/-- Entry `(w, h)` of the product from zero: the sum over the eight boxes of row indicator times column indicator. -/
theorem boxCount_apply (wv hv : Vec Ideal S1x1x8x2 .i32) (w h : Fin 512) :
    boxCount (F := Ideal) wv hv (ix2 w h)
      = ∑ n : Fin 8, bit (inside w.val (wv (ix4 (0 : Fin 1) (0 : Fin 1) n (0 : Fin 2))) (wv (ix4 (0 : Fin 1) (0 : Fin 1) n (1 : Fin 2))))
          * bit (inside h.val (hv (ix4 (0 : Fin 1) (0 : Fin 1) n (0 : Fin 2))) (hv (ix4 (0 : Fin 1) (0 : Fin 1) n (1 : Fin 2)))) := by
  refine (Idealize.ShloMosaic.PlainDot.matmul_zero_apply 512 8 512 none (rowsIn (F := Ideal) wv) (colsIn (F := Ideal) hv) w h).trans ?_
  exact Finset.sum_congr rfl fun n _ => by rw [rowsIn_apply, colsIn_apply]

/-- Entry `(w, h)` of what is stored for a plane (whatever the two unit coordinates): zero where some box covers the
    pixel, the plane's value elsewhere. -/
theorem plane_apply (xv : Vec Ideal S1x1x512x512 .f32) (wv hv : Vec Ideal S1x1x8x2 .i32) (u v : Fin 1) (w h : Fin 512) :
    plane (F := Ideal) xv wv hv (ix4 u v w h)
      = Scalar.select (Ideal.cmp .ogt
          (∑ n : Fin 8, bit (inside w.val (wv (ix4 (0 : Fin 1) (0 : Fin 1) n (0 : Fin 2))) (wv (ix4 (0 : Fin 1) (0 : Fin 1) n (1 : Fin 2))))
            * bit (inside h.val (hv (ix4 (0 : Fin 1) (0 : Fin 1) n (0 : Fin 2))) (hv (ix4 (0 : Fin 1) (0 : Fin 1) n (1 : Fin 2)))))
          (Ideal.ofBits .f32 0x00000000#32))
        (Ideal.ofBits .f32 0x00000000#32) (xv (ix4 (0 : Fin 1) (0 : Fin 1) w h)) := by
  unfold plane
  refine (Cert.LibUnitAxes.shapeCast_ab_11ab_apply _ shapeCasts_S512x512_S1x1x512x512 u v w h).trans ?_
  show Scalar.select (FloatOps.cmpf .ogt (boxCount (F := Ideal) wv hv (ix2 w h)) (Ideal.ofBits .f32 0x00000000#32))
      (Ideal.ofBits .f32 0x00000000#32) (shapeCast S512x512 xv shapeCasts_S1x1x512x512_S512x512 (ix2 w h)) = _
  rw [boxCount_apply, Cert.LibUnitAxes.shapeCast_11ab_ab_apply]
  rfl

end Cert.KernelIdeal.BodyValue

end
-- ==== Proof.KernelCutout.lean ====
/-
  The kernel's result array is the cutout of its arguments.

  The grid has one point per image `b`: the point's blocks are image `b` of `x` (three planes) and rows `b` of the
  two box tables, and the body stores, plane by plane, the cutout of that plane. The three stores tile the output
  block, so the block is one function of the three input blocks (`blockCutout`); the input blocks are the argument
  arrays read at `(b, ·, ·, ·)`, so the block is block `b` of the cutout of the whole arrays; the 32 blocks cover the
  array, so after the run the array is the cutout.
-/
import proofs.«163389_j51883204935704_1_alg».proof.Proof.Gen.KernelIdeal.Value
import proofs.«163389_j51883204935704_1_alg».proof.Proof.BodyCutout
import proofs.«163389_j51883204935704_1_alg».proof.Proof.CutoutSpec
import Idealize.ShloMosaic.Lib.Pipeline.Value
import Idealize.ShloMosaic.Lib.ValueIdx

set_option maxRecDepth 16384

noncomputable section

open scoped BigOperators

namespace Cert.KernelIdeal.KernelValue

open Cert.KernelIdeal Cert.KernelIdeal.Gen Cert.KernelIdeal.BodyValue
open Idealize.ShloMosaic Idealize.ShloMosaic.TcCoe Idealize.ShloMosaic.ValueIdx Idealize.SL.Sem Cert.Cutout
open Idealize.ShloMosaic.Pipeline (Dat)

/-! ## The output block as one function of the three input blocks -/

/-- The cutout of one image: entry `(·, c, w, h)` is zero when one of plane `c`'s eight boxes covers `(w, h)`, and the
    image's entry otherwise. -/
def blockCutout (x0 : Vec Ideal S1x3x512x512 .f32) (x1 x2 : Vec Ideal S1x3x8x2 .i32) : S1x3x512x512.Idx → EReal := fun j =>
  Scalar.select (Ideal.cmp .ogt
      (∑ n : Fin 8, bit (inside (j 2).val (x1 (ix4 (0 : Fin 1) (j 1) n (0 : Fin 2))) (x1 (ix4 (0 : Fin 1) (j 1) n (1 : Fin 2))))
        * bit (inside (j 3).val (x2 (ix4 (0 : Fin 1) (j 1) n (0 : Fin 2))) (x2 (ix4 (0 : Fin 1) (j 1) n (1 : Fin 2)))))
      (Ideal.ofBits .f32 0x00000000#32))
    (Ideal.ofBits .f32 0x00000000#32) (x0 j)

/-- Plane `c` of an image block: index `(u, v, w, h)` of the plane sits at `(0, c, w, h)` of the block. -/
theorem planeX_idx (c : Nat) (hc : c < 3) (inb : ∀ a, (![0, c, 0, 0] : Fin 4 → Nat) a + S1x1x512x512.size a ≤ S1x3x512x512.size a)
    (u v : Fin 1) (w h : Fin 512) :
    (Rect.unit (s := S1x3x512x512) ![0, c, 0, 0] S1x1x512x512.size inb).idx (ix4 u v w h) = ix4 (0 : Fin 1) (⟨c, hc⟩ : Fin 3) w h := by
  have hu : u.val = 0 := by omega
  have hv : v.val = 0 := by omega
  funext a
  refine Fin.ext ?_
  match a with
  | ⟨0, _⟩ => show 0 + 1 * u.val = 0; omega
  | ⟨1, _⟩ => show c + 1 * v.val = c; omega
  | ⟨2, _⟩ => show 0 + 1 * w.val = w.val; omega
  | ⟨3, _⟩ => show 0 + 1 * h.val = h.val; omega

/-- Plane `c` of a table block: bound `o` of box `n` sits at `(0, c, n, o)` of the block. -/
theorem planeP_idx (c : Nat) (hc : c < 3) (inb : ∀ a, (![0, c, 0, 0] : Fin 4 → Nat) a + S1x1x8x2.size a ≤ S1x3x8x2.size a)
    (u v : Fin 1) (n : Fin 8) (o : Fin 2) :
    (Rect.unit (s := S1x3x8x2) ![0, c, 0, 0] S1x1x8x2.size inb).idx (ix4 u v n o) = ix4 (0 : Fin 1) (⟨c, hc⟩ : Fin 3) n o := by
  have hu : u.val = 0 := by omega
  have hv : v.val = 0 := by omega
  funext a
  refine Fin.ext ?_
  match a with
  | ⟨0, _⟩ => show 0 + 1 * u.val = 0; omega
  | ⟨1, _⟩ => show c + 1 * v.val = c; omega
  | ⟨2, _⟩ => show 0 + 1 * n.val = n.val; omega
  | ⟨3, _⟩ => show 0 + 1 * o.val = o.val; omega

/-- What is stored for plane `c`, at an index of the plane, is the image's cutout at that index's place in the block. -/
theorem piece_eq (x0 : Vec Ideal S1x3x512x512 .f32) (x1 x2 : Vec Ideal S1x3x8x2 .i32) (c : Nat) (hc : c < 3)
    (inbX : ∀ a, (![0, c, 0, 0] : Fin 4 → Nat) a + S1x1x512x512.size a ≤ S1x3x512x512.size a)
    (inbP : ∀ a, (![0, c, 0, 0] : Fin 4 → Nat) a + S1x1x8x2.size a ≤ S1x3x8x2.size a) (y : S1x1x512x512.Idx) :
    plane (F := Ideal) (View.ld x0 (Rect.unit (s := S1x3x512x512) ![0, c, 0, 0] S1x1x512x512.size inbX))
        (View.ld x1 (Rect.unit (s := S1x3x8x2) ![0, c, 0, 0] S1x1x8x2.size inbP))
        (View.ld x2 (Rect.unit (s := S1x3x8x2) ![0, c, 0, 0] S1x1x8x2.size inbP)) y
      = blockCutout x0 x1 x2 ((Rect.unit (s := S1x3x512x512) ![0, c, 0, 0] S1x1x512x512.size inbX).idx y) := by
  obtain ⟨u, v, w, h, rfl⟩ : ∃ (u v : Fin 1) (w h : Fin 512), y = ix4 u v w h := ⟨y 0, y 1, y 2, y 3, eq_ix4 y⟩
  rw [plane_apply, planeX_idx c hc inbX u v w h]
  simp only [View.ld, planeX_idx c hc inbX, planeP_idx c hc inbP]
  rfl

/-- The three stores tile the block: after the body the output block is the image's cutout. -/
theorem out_eq (x0 : Vec Ideal S1x3x512x512 .f32) (x1 x2 : Vec Ideal S1x3x8x2 .i32) :
    out0_3 (F := Ideal) x0 x1 x2 = blockCutout x0 x1 x2 := by
  funext y
  unfold out0_3
  rw [store2_eq, store1_eq, store0_eq]
  refine View.canon_apply_of_pieces (Val := Elt Ideal) (blockCutout x0 x1 x2) _ (fun p hp x => ?_) y (cover0_3 _ _ _ y)
  simp only [List.mem_cons, List.not_mem_nil, or_false] at hp
  rcases hp with rfl | rfl | rfl
  · exact piece_eq x0 x1 x2 2 (by decide) _ _ x
  · exact piece_eq x0 x1 x2 1 (by decide) _ _ x
  · exact piece_eq x0 x1 x2 0 (by decide) _ _ x

/-- When the three blocks are the arrays read at image `b`, the block's cutout is the arrays' cutout at image `b`. -/
theorem blockCutout_of_arrays (X : SX.Idx → EReal) (W H : SP.Idx → BitVec 32)
    (x0 : Vec Ideal S1x3x512x512 .f32) (x1 x2 : Vec Ideal S1x3x8x2 .i32) (b : Fin 32)
    (h0 : ∀ y : S1x3x512x512.Idx, x0 y = X (ix4 b (y 1) (y 2) (y 3)))
    (h1 : ∀ y : S1x3x8x2.Idx, x1 y = W (ix4 b (y 1) (y 2) (y 3)))
    (h2 : ∀ y : S1x3x8x2.Idx, x2 y = H (ix4 b (y 1) (y 2) (y 3))) (j : S1x3x512x512.Idx) :
    blockCutout x0 x1 x2 j = cutout X W H (ix4 b (j 1) (j 2) (j 3)) := by
  unfold blockCutout cutout Cert.Cutout.count
  simp only [h0, h1, h2]

/-! ## The blocks of a grid point are the arrays at one image -/

variable (m : (ℓ : Loc nD τ sig) → Buf (Elt Ideal) ℓ) (ρ : Dev nD → PrngReg)

/-- The index maps over the 32 grid points: at point `t` every window's block index is `(t, 0, 0, 0)`. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The image block at point `t` is the image array at `(t, ·, ·, ·)`. -/
theorem blockX (c : Dev nD) (t : Fin cfg0.N) (hb : t.val < 32) (y : S1x3x512x512.Idx) :
    iblk m c 0 t y = V m c main_arg0 (ix4 (⟨t.val, hb⟩ : Fin 32) (y 1) (y 2) (y 3)) := by
  obtain ⟨⟨e0, e1, e2, e3⟩, -⟩ := idx_facts t
  have hy0 : (y 0).val < 1 := (y 0).isLt
  show V m c main_arg0 (((cfg0.win 0).blk t).view.emb y) = _
  refine congrArg (V m c main_arg0) (funext fun a => Fin.ext ?_)
  match a with
  | ⟨0, _⟩ => show win0_0.index t (0 : Fin 4) * 1 + 1 * (y 0).val = t.val; omega
  | ⟨1, _⟩ => show win0_0.index t (1 : Fin 4) * 3 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- The row-table block at point `t` is the row table at `(t, ·, ·, ·)`. -/
theorem blockW (c : Dev nD) (t : Fin cfg0.N) (hb : t.val < 32) (y : S1x3x8x2.Idx) :
    iblk m c 1 t y = V m c main_arg1 (ix4 (⟨t.val, hb⟩ : Fin 32) (y 1) (y 2) (y 3)) := by
  obtain ⟨-, ⟨e0, e1, e2, e3⟩, -⟩ := idx_facts t
  have hy0 : (y 0).val < 1 := (y 0).isLt
  show V m c main_arg1 (((cfg0.win 1).blk t).view.emb y) = _
  refine congrArg (V m c main_arg1) (funext fun a => Fin.ext ?_)
  match a with
  | ⟨0, _⟩ => show win0_1.index t (0 : Fin 4) * 1 + 1 * (y 0).val = t.val; omega
  | ⟨1, _⟩ => show win0_1.index t (1 : Fin 4) * 3 + 1 * (y 1).val = (y 1).val; omega
  | ⟨2, _⟩ => show win0_1.index t (2 : Fin 4) * 8 + 1 * (y 2).val = (y 2).val; omega
  | ⟨3, _⟩ => show win0_1.index t (3 : Fin 4) * 2 + 1 * (y 3).val = (y 3).val; omega

/-- The column-table block at point `t` is the column table at `(t, ·, ·, ·)`. -/
theorem blockH (c : Dev nD) (t : Fin cfg0.N) (hb : t.val < 32) (y : S1x3x8x2.Idx) :
    iblk m c 2 t y = V m c main_arg2 (ix4 (⟨t.val, hb⟩ : Fin 32) (y 1) (y 2) (y 3)) := by
  obtain ⟨-, -, ⟨e0, e1, e2, e3⟩, -⟩ := idx_facts t
  have hy0 : (y 0).val < 1 := (y 0).isLt
  show V m c main_arg2 (((cfg0.win 2).blk t).view.emb y) = _
  refine congrArg (V m c main_arg2) (funext fun a => Fin.ext ?_)
  match a with
  | ⟨0, _⟩ => show win0_2.index t (0 : Fin 4) * 1 + 1 * (y 0).val = t.val; omega
  | ⟨1, _⟩ => show win0_2.index t (1 : Fin 4) * 3 + 1 * (y 1).val = (y 1).val; omega
  | ⟨2, _⟩ => show win0_2.index t (2 : Fin 4) * 8 + 1 * (y 2).val = (y 2).val; omega
  | ⟨3, _⟩ => show win0_2.index t (3 : Fin 4) * 2 + 1 * (y 3).val = (y 3).val; omega

/-- Index `j` of the output block at point `t` sits at `(t, j 1, j 2, j 3)` of the result array. -/
theorem outEmb (t : Fin cfg0.N) (hb : t.val < 32) (j : S1x3x512x512.Idx) :
    ((cfg0.win 3).blk t).view.emb j = ix4 (⟨t.val, hb⟩ : Fin 32) (j 1) (j 2) (j 3) := by
  obtain ⟨-, -, -, ⟨e0, e1, e2, e3⟩⟩ := idx_facts t
  have hj0 : (j 0).val < 1 := (j 0).isLt
  funext a
  refine Fin.ext ?_
  match a with
  | ⟨0, _⟩ => show win0_3.index t (0 : Fin 4) * 1 + 1 * (j 0).val = t.val; omega
  | ⟨1, _⟩ => show win0_3.index t (1 : Fin 4) * 3 + 1 * (j 1).val = (j 1).val; omega
  | ⟨2, _⟩ => show win0_3.index t (2 : Fin 4) * 512 + 1 * (j 2).val = (j 2).val; omega
  | ⟨3, _⟩ => show win0_3.index t (3 : Fin 4) * 512 + 1 * (j 3).val = (j 3).val; omega

/-! ## From the blocks to the array -/

/-- What point `t` writes back is block `t` of the cutout of the argument arrays. -/
theorem flushed_eq (c : Dev nD) (t : Fin cfg0.N) :
    (dats m 0 c).flushed 3 t
      = ((cfg0.win 3).blk t).view.read (Elt Ideal) (cutout (V m c main_arg0) (V m c main_arg1) (V m c main_arg2)) := by
  have hb : t.val < 32 := t.isLt
  rw [Cert.KernelIdeal.Value.flushed3, out_eq]
  funext j
  show blockCutout (iblk m c 0 t) (iblk m c 1 t) (iblk m c 2 t) j
    = cutout (V m c main_arg0) (V m c main_arg1) (V m c main_arg2) (((cfg0.win 3).blk t).view.emb j)
  refine (blockCutout_of_arrays (V m c main_arg0) (V m c main_arg1) (V m c main_arg2) (iblk m c 0 t) (iblk m c 1 t)
    (iblk m c 2 t) ⟨t.val, hb⟩ (blockX m c t hb) (blockW m c t hb) (blockH m c t hb) j).trans ?_
  exact congrArg (cutout (V m c main_arg0) (V m c main_arg1) (V m c main_arg2)) (outEmb t hb j).symm

/-- An index of the result array is in point `t`'s block iff each coordinate is in the block's range on its axis. -/
theorem mem_blk (t : Fin cfg0.N) (i : S32x3x512x512.Idx) :
    i ∈ ((cfg0.win 3).blk t).view.set ↔ ∀ a : Fin 4, win0_3.index t a * S1x3x512x512.size a ≤ (i a).val
      ∧ (i a).val < win0_3.index t a * S1x3x512x512.size a + S1x3x512x512.size a := by
  show i ∈ ((View.whole main_v0).slice (win0_3.rect t)).set ↔ _
  rw [View.set_slice_whole, Rect.mem_set_unit]
  exact Iff.rfl

/-- Every index of the result array is in the block of the point of its image. -/
theorem covered (i : S32x3x512x512.Idx) :
    ∃ t : Fin cfg0.N, (cfg0.win 3).flush t = true ∧ i ∈ ((cfg0.win 3).blk t).view.set := by
  have h0 : (i 0).val < 32 := (i 0).isLt
  have h1 : (i 1).val < 3 := (i 1).isLt
  have h2 : (i 2).val < 512 := (i 2).isLt
  have h3 : (i 3).val < 512 := (i 3).isLt
  obtain ⟨-, -, -, ⟨e0, e1, e2, e3⟩⟩ := idx_facts (⟨(i 0).val, h0⟩ : Fin cfg0.N)
  have e0' : win0_3.index (⟨(i 0).val, h0⟩ : Fin cfg0.N) (0 : Fin 4) = (i 0).val := e0
  refine ⟨⟨(i 0).val, h0⟩, flush0_3 _, ?_⟩
  rw [mem_blk]
  intro a
  match a with
  | ⟨0, _⟩ =>
    show win0_3.index (⟨(i 0).val, h0⟩ : Fin cfg0.N) (0 : Fin 4) * 1 ≤ (i 0).val
      ∧ (i 0).val < win0_3.index (⟨(i 0).val, h0⟩ : Fin cfg0.N) (0 : Fin 4) * 1 + 1
    omega
  | ⟨1, _⟩ =>
    show win0_3.index (⟨(i 0).val, h0⟩ : Fin cfg0.N) (1 : Fin 4) * 3 ≤ (i 1).val
      ∧ (i 1).val < win0_3.index (⟨(i 0).val, h0⟩ : Fin cfg0.N) (1 : Fin 4) * 3 + 3
    omega
  | ⟨2, _⟩ =>
    show win0_3.index (⟨(i 0).val, h0⟩ : Fin cfg0.N) (2 : Fin 4) * 512 ≤ (i 2).val
      ∧ (i 2).val < win0_3.index (⟨(i 0).val, h0⟩ : Fin cfg0.N) (2 : Fin 4) * 512 + 512
    omega
  | ⟨3, _⟩ =>
    show win0_3.index (⟨(i 0).val, h0⟩ : Fin cfg0.N) (3 : Fin 4) * 512 ≤ (i 3).val
      ∧ (i 3).val < win0_3.index (⟨(i 0).val, h0⟩ : Fin cfg0.N) (3 : Fin 4) * 512 + 512
    omega

/-- After the run the result array is the cutout of the argument arrays. -/
theorem final (c : Dev nD) :
    (dats m 0 c).arrAt 3 cfg0.N = cutout (V m c main_arg0) (V m c main_arg1) (V m c main_arg2) :=
  (dats m 0 c).arrAt_eq_of_cover 3 _ (fun t _ => flushed_eq m c t) covered

/-- Every weakly fair execution of the kernel's program terminates with the result array at the cutout of the
    arguments, the arguments unchanged. -/
theorem run : θ_run defs (onTc (τ := τ) (main (F := Ideal))) ⟨m, fun _ => 0, ρ⟩ fun r => ∀ c : Dev nD,
      r.2.mem ((c : Thread nD τ).loc main_v0)
        = cutout (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KernelValue

end
-- ==== Proof.RefCutout.lean ====
/-
  The reference computes the cutout.

  The reference builds, for every plane and box, the row indicator `[lo ≤ w < hi]` over all 512 rows and the column
  indicator over all 512 columns (arrays of shape [32, 3, 8, 512]), converts both to numbers, contracts the box axis
  — entry `(b, c, w, h)` of the product is `∑ n, rows(b, c, n, w) · columns(b, c, n, h)` — and selects zero where
  that count is positive. Read at an index, each indicator is the comparison of the index's own coordinate with the two
  bounds of box `n` of plane `(b, c)`: the slices, reshapes and broadcasts on the way only carry the coordinates along.
-/
import proofs.«163389_j51883204935704_1_alg».proof.Proof.RefReadP
import proofs.«163389_j51883204935704_1_alg».proof.Proof.CutoutSpec

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.Cutout

/-! ## Where each bound is read: the layout operations carry `(b, c, n)` through and pick column 0 or 1 of the table -/

/-- The row interval's lower bound of box `k`, as the left factor at output index `i` reads it, is the table's entry
    `(b, c, k, 0)`. -/
theorem row_lo_idx (i : S32x3x512x512.Idx) (k : Fin 8) :
    idx_main_v0 (idx_main_v1 (idx_main_v10 (idx_main_v13 (lidx_main_v34 i k)))) = ix4 (i 0) (i 1) k (0 : Fin 2) := by
  have h0 : (i 0).val < 32 := (i 0).isLt
  have h1 : (i 1).val < 3 := (i 1).isLt
  have hk : k.val < 8 := k.isLt
  funext a
  refine Fin.ext ?_
  match a with
  | ⟨0, _⟩ => show (((i 0).val * 3 + (i 1).val) * 8 + k.val) / 24 = (i 0).val; omega
  | ⟨1, _⟩ => show (((i 0).val * 3 + (i 1).val) * 8 + k.val) / 8 % 3 = (i 1).val; omega
  | ⟨2, _⟩ => show (((i 0).val * 3 + (i 1).val) * 8 + k.val) / 1 % 8 = k.val; omega
  | ⟨3, _⟩ => rfl

/-- Its upper bound is the entry `(b, c, k, 1)`. -/
theorem row_hi_idx (i : S32x3x512x512.Idx) (k : Fin 8) :
    idx_main_v2 (idx_main_v3 (idx_main_v15 (idx_main_v18 (lidx_main_v34 i k)))) = ix4 (i 0) (i 1) k (1 : Fin 2) := by
  have h0 : (i 0).val < 32 := (i 0).isLt
  have h1 : (i 1).val < 3 := (i 1).isLt
  have hk : k.val < 8 := k.isLt
  funext a
  refine Fin.ext ?_
  match a with
  | ⟨0, _⟩ => show (((i 0).val * 3 + (i 1).val) * 8 + k.val) / 24 = (i 0).val; omega
  | ⟨1, _⟩ => show (((i 0).val * 3 + (i 1).val) * 8 + k.val) / 8 % 3 = (i 1).val; omega
  | ⟨2, _⟩ => show (((i 0).val * 3 + (i 1).val) * 8 + k.val) / 1 % 8 = k.val; omega
  | ⟨3, _⟩ => rfl

/-- The column interval's lower bound of box `k`, as the right factor reads it, is the entry `(b, c, k, 0)` of the
    second table. -/
theorem col_lo_idx (i : S32x3x512x512.Idx) (k : Fin 8) :
    idx_main_v4 (idx_main_v5 (idx_main_v21 (idx_main_v24 (ridx_main_v34 i k)))) = ix4 (i 0) (i 1) k (0 : Fin 2) := by
  have h0 : (i 0).val < 32 := (i 0).isLt
  have h1 : (i 1).val < 3 := (i 1).isLt
  have hk : k.val < 8 := k.isLt
  funext a
  refine Fin.ext ?_
  match a with
  | ⟨0, _⟩ => show (((i 0).val * 3 + (i 1).val) * 8 + k.val) / 24 = (i 0).val; omega
  | ⟨1, _⟩ => show (((i 0).val * 3 + (i 1).val) * 8 + k.val) / 8 % 3 = (i 1).val; omega
  | ⟨2, _⟩ => show (((i 0).val * 3 + (i 1).val) * 8 + k.val) / 1 % 8 = k.val; omega
  | ⟨3, _⟩ => rfl

/-- Its upper bound is the entry `(b, c, k, 1)`. -/
theorem col_hi_idx (i : S32x3x512x512.Idx) (k : Fin 8) :
    idx_main_v6 (idx_main_v7 (idx_main_v26 (idx_main_v29 (ridx_main_v34 i k)))) = ix4 (i 0) (i 1) k (1 : Fin 2) := by
  have h0 : (i 0).val < 32 := (i 0).isLt
  have h1 : (i 1).val < 3 := (i 1).isLt
  have hk : k.val < 8 := k.isLt
  funext a
  refine Fin.ext ?_
  match a with
  | ⟨0, _⟩ => show (((i 0).val * 3 + (i 1).val) * 8 + k.val) / 24 = (i 0).val; omega
  | ⟨1, _⟩ => show (((i 0).val * 3 + (i 1).val) * 8 + k.val) / 8 % 3 = (i 1).val; omega
  | ⟨2, _⟩ => show (((i 0).val * 3 + (i 1).val) * 8 + k.val) / 1 % 8 = k.val; omega
  | ⟨3, _⟩ => rfl

/-! ## The two factors of the contraction -/

/-- The left factor at output index `(b, c, w, h)` and box `k`: is row `w` inside box `k`'s row interval. -/
theorem row_factor (x1 : (⟨S32x3x8x2, .i32⟩ : BufTy).Contents (Elt Ideal)) (i : S32x3x512x512.Idx) (k : Fin 8) :
    val_main_v32 (F := Ideal) x1 (lidx_main_v34 i k)
      = bit (inside (i 2).val (x1 (ix4 (i 0) (i 1) k (0 : Fin 2))) (x1 (ix4 (i 0) (i 1) k (1 : Fin 2)))) := by
  simp only [val_main_v32_apply, val_main_v20_apply, val_main_v14_apply, val_main_v19_apply, val_main_v12_apply,
    val_main_v11_apply, val_main_v8_apply, val_main_v13_apply, val_main_v10_apply, val_main_v1_apply, val_main_v0_apply,
    val_main_v17_apply, val_main_v16_apply, val_main_v18_apply, val_main_v15_apply, val_main_v3_apply, val_main_v2_apply]
  rw [row_lo_idx, row_hi_idx]
  rfl

/-- The right factor: is column `h` inside box `k`'s column interval. -/
theorem col_factor (x2 : (⟨S32x3x8x2, .i32⟩ : BufTy).Contents (Elt Ideal)) (i : S32x3x512x512.Idx) (k : Fin 8) :
    val_main_v33 (F := Ideal) x2 (ridx_main_v34 i k)
      = bit (inside (i 3).val (x2 (ix4 (i 0) (i 1) k (0 : Fin 2))) (x2 (ix4 (i 0) (i 1) k (1 : Fin 2)))) := by
  simp only [val_main_v33_apply, val_main_v31_apply, val_main_v25_apply, val_main_v30_apply, val_main_v23_apply,
    val_main_v22_apply, val_main_v9_apply, val_main_v24_apply, val_main_v21_apply, val_main_v5_apply, val_main_v4_apply,
    val_main_v28_apply, val_main_v27_apply, val_main_v29_apply, val_main_v26_apply, val_main_v7_apply, val_main_v6_apply]
  rw [col_lo_idx, col_hi_idx]
  rfl

/-! ## The result -/

/-- The reference's result is the cutout of its arguments. -/
theorem ref_is_cutout (x0 : (⟨S32x3x512x512, .f32⟩ : BufTy).Contents (Elt Ideal))
    (x1 x2 : (⟨S32x3x8x2, .i32⟩ : BufTy).Contents (Elt Ideal)) :
    val_main_v37 (F := Ideal) x0 x1 x2 = cutout x0 x1 x2 := by
  funext i
  rw [val_main_v37_apply, val_main_v36_apply, val_main_v34_apply, val_main_v35_apply, val_main_cst_apply,
    val_main_call0_v0_apply, val_main_cst_0_apply]
  have hs : (∑ k : Fin 8, val_main_v32 (F := Ideal) x1 (lidx_main_v34 i k) * val_main_v33 (F := Ideal) x2 (ridx_main_v34 i k))
      = count x1 x2 (i 0) (i 1) (i 2) (i 3) :=
    Finset.sum_congr rfl fun k _ => by rw [row_factor, col_factor]
  rw [hs]
  rfl

end Cert.ReferenceIdeal.RefValue

end
-- ==== Proof.lean ====
/-
  Zeroing the pixels that a set of boxes covers: the kernel against its reference, on the extended reals.

  The input is an image `x` of shape [32, 3, 512, 512] and two integer tables of shape [32, 3, 8, 2]: for each of the
  32 × 3 planes, eight boxes, box `n` the product of a row interval `[lo, hi)` (first table) and a column interval
  (second table). Both programs compute, for every pixel `(w, h)` of a plane, the number of boxes covering it as
  `∑ n, [w in rows n] · [h in columns n]` — the kernel as a [512, 8] by [8, 512] matrix product from zero, one image per
  grid point and one plane per store; the reference as one contraction over the box axis of two [32, 3, 8, 512]
  indicator arrays — and return zero where the count is positive and `x` elsewhere. The indicators are the same
  integer comparisons on both sides; the kernel converts the bit through a 32-bit signed integer and a change of float
  format (the identity on the extended reals), the reference converts the bit directly: both give the number 0 or 1.
  So both results are ONE function of the arguments, `Cert.Cutout.cutout`, index by index, and no law of the extended
  reals beyond the definition of a finite sum is needed — in particular the finiteness of `x` is not used.

  * `Cert.Cutout` (CutoutSpec.lean): the function.
  * `Cert.KernelIdeal.BodyValue` (BodyCutout.lean): the body's three stores, read at an index.
  * `Cert.KernelIdeal.KernelValue` (KernelCutout.lean): from the stores to the block, from the blocks to the array; the
    kernel's run with its result named.
  * `Cert.ReferenceIdeal.RefValue` (RefCutout.lean): the reference's result term, read at an index.
  The three frames are the generated ones (the reference's is its run with the result dropped); the idealization
  rewrote nothing, so `preserves` is `True`.
-/
import proofs.«163389_j51883204935704_1_alg».proof.Defs
import proofs.«163389_j51883204935704_1_alg».proof.Proof.Gen.Kernel
import proofs.«163389_j51883204935704_1_alg».proof.Proof.Gen.Kernel.Skeleton
import proofs.«163389_j51883204935704_1_alg».proof.Proof.Gen.Kernel.Launch
import proofs.«163389_j51883204935704_1_alg».proof.Proof.Gen.Kernel.Points
import proofs.«163389_j51883204935704_1_alg».proof.Proof.Gen.Kernel.Frame
import proofs.«163389_j51883204935704_1_alg».proof.Proof.Gen.KernelIdeal
import proofs.«163389_j51883204935704_1_alg».proof.Proof.Gen.KernelIdeal.Skeleton
import proofs.«163389_j51883204935704_1_alg».proof.Proof.Gen.KernelIdeal.Launch
import proofs.«163389_j51883204935704_1_alg».proof.Proof.Gen.KernelIdeal.Points
import proofs.«163389_j51883204935704_1_alg».proof.Proof.Gen.KernelIdeal.Frame
import proofs.«163389_j51883204935704_1_alg».proof.Proof.Gen.ReferenceIdeal
import proofs.«163389_j51883204935704_1_alg».proof.Proof.Gen.Pre_finite_inputs
import proofs.«163389_j51883204935704_1_alg».proof.Proof.Gen.KernelIdeal.Value
import proofs.«163389_j51883204935704_1_alg».proof.Proof.RefRunP
import proofs.«163389_j51883204935704_1_alg».proof.Proof.RefReadP
import proofs.«163389_j51883204935704_1_alg».proof.Proof.CutoutSpec
import proofs.«163389_j51883204935704_1_alg».proof.Proof.BodyCutout
import proofs.«163389_j51883204935704_1_alg».proof.Proof.KernelCutout
import proofs.«163389_j51883204935704_1_alg».proof.Proof.RefCutout
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealized kernel is the kernel's own text read on the extended reals: nothing was rewritten. -/
theorem preserves : Cert.preserves_Kernel_KernelIdeal := trivial

/-- From memories agreeing on the arguments, the kernel's result array and the reference's are both the cutout of the
    arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v37_eq, Cert.ReferenceIdeal.RefValue.ref_is_cutout,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
